-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096x128 : Shape := ⟨2, ![4096, 128]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : IVec S4096x4096 32) (main_arg2 : FVec F S4096x128 .f32) (main_arg3 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096x128 : Shape := ⟨2, ![4096, 128]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256x128 : Shape := ⟨2, ![256, 128]⟩
abbrev S1x256 : Shape := ⟨2, ![1, 256]⟩
abbrev S512x256 : Shape := ⟨2, ![512, 256]⟩
abbrev S256x128x32 : Shape := ⟨3, ![256, 128, 32]⟩
abbrev S256x128x1 : Shape := ⟨3, ![256, 128, 1]⟩

abbrev nBuf : Space → Nat
  | .hbm => 8
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x128, .f32⟩
  | .hbm, ⟨3, _⟩ => ⟨S4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S2x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S256x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x128x32 : S256x4096.ShapeCasts S256x128x32
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  broadcasts_S256x128x1_S256x128x32 : S256x128x1.Broadcasts S256x128x32
  shapeCasts_S256x128x32_S256x4096 : S256x128x32.ShapeCasts S256x4096
  bitsLt_bf16_f32 : FTy.bits .bf16 < FTy.bits .f32
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x4096.size a
  hwx0_4 : ∀ i : grid0.Coords, EltTy.bits .f32 = 32 ∨ (Rect.block (s := S4096x4096) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x128 : Shape := ⟨2, ![4096, 128]⟩
abbrev S4096 : Shape := ⟨1, ![4096]⟩
abbrev S4096x128x32 : Shape := ⟨3, ![4096, 128, 32]⟩
abbrev S4096x128x1 : Shape := ⟨3, ![4096, 128, 1]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x128, .f32⟩
  | .hbm, ⟨3, _⟩ => ⟨S4096, .f32⟩
  | .hbm, ⟨4, _⟩ => ⟨S4096x128x32, .i32⟩
  | .hbm, ⟨5, _⟩ => ⟨S4096x128x32, .f32⟩
  | .hbm, ⟨6, _⟩ => ⟨S4096x128x1, .f32⟩
  | .hbm, ⟨7, _⟩ => ⟨S4096x128x32, .f32⟩
  | .hbm, ⟨8, _⟩ => ⟨S4096x128x32, .f32⟩
  | .hbm, ⟨9, _⟩ => ⟨S4096x4096, .f32⟩
  | .hbm, ⟨10, _⟩ => ⟨S2x2048x4096, .f32⟩
  | .hbm, ⟨11, _⟩ => ⟨S1x1x4096, .f32⟩
  | .hbm, ⟨12, _⟩ => ⟨S2x2048x4096, .f32⟩
  | .hbm, ⟨13, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  The mathematics of the block-quantized linear layer, stated once, away from both programs.

  The weight matrix is stored as integers `q[o, k]` (4096 × 4096) with one scale per run of 32 consecutive
  columns, `s[o, k / 32]` (4096 × 128). The layer's weight is `w[o, k] = q[o, k] · s[o, k / 32]` (the integer read
  as the real number it denotes), and the layer maps an input `x` (2 × 2048 rows of 4096 entries) and a bias `b`
  (4096 entries) to

      y[u, r, o] = (∑ k, x[u, r, k] · w[o, k]) + b[o]

  over the extended reals. The same formula is stated a second time for the input flattened to 4096 rows
  (`rowsOut`), which is the array the tiled computation fills before it is folded back to 2 × 2048 rows, and
  a third time for one tile of 256 weight rows (`tileWeight`).
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- The 4096 × 4096 matrices: the integer weights, the flattened input and the flattened output. -/
abbrev SQ : Shape := ⟨2, ![4096, 4096]⟩
/-- The scales: 4096 rows of 128 blocks. -/
abbrev SS : Shape := ⟨2, ![4096, 128]⟩
/-- The bias. -/
abbrev SB : Shape := ⟨1, ![4096]⟩
/-- The bias kept as one row. -/
abbrev SB1 : Shape := ⟨2, ![1, 4096]⟩
/-- The input and the output: 2 × 2048 rows. -/
abbrev SX : Shape := ⟨3, ![2, 2048, 4096]⟩
/-- One tile of 256 weight rows. -/
abbrev ST : Shape := ⟨2, ![256, 4096]⟩

/-- The block of 32 columns that column `k` lies in. -/
def blockOf (k : Fin 4096) : Fin 128 := ⟨k.val / 32, by have := k.isLt; omega⟩

theorem blockOf_val (k : Fin 4096) : (blockOf k).val = k.val / 32 := rfl

/-- The layer's weight at row `o`, column `k`: the stored integer times its block's scale. -/
def weight (q : SQ.Idx → BitVec 32) (s : SS.Idx → EReal) (o k : Fin 4096) : EReal :=
  FloatOps.sitofp (F := Ideal) .f32 (q (ix2 o k)) * s (ix2 o (blockOf k))

/-- Row `p` of the `n`-th tile of 256 weight rows is row `256 n + p` of the matrix. -/
def tileRow (n : Fin 16) (p : Fin 256) : Fin 4096 := ⟨256 * n.val + p.val, by have := n.isLt; have := p.isLt; omega⟩

theorem tileRow_val (n : Fin 16) (p : Fin 256) : (tileRow n p).val = 256 * n.val + p.val := rfl

/-- The `n`-th tile of 256 rows of the weight matrix. -/
def tileWeight (q : SQ.Idx → BitVec 32) (s : SS.Idx → EReal) (n : Fin 16) : ST.Idx → EReal :=
  fun y => weight q s (tileRow n (y 0)) (y 1)

/-- The layer on the input flattened to 4096 rows, the bias kept as one row of 4096. -/
def rowsOut (x2 : SQ.Idx → EReal) (q : SQ.Idx → BitVec 32) (s : SS.Idx → EReal) (b1 : SB1.Idx → EReal) :
    SQ.Idx → EReal :=
  fun j => (∑ k : Fin 4096, x2 (ix2 (j 0) k) * weight q s (j 1) k) + b1 (ix2 (0 : Fin 1) (j 1))

/-- The layer: `y[u, r, o] = (∑ k, x[u, r, k] · w[o, k]) + b[o]`. -/
def layerOut (x : SX.Idx → EReal) (q : SQ.Idx → BitVec 32) (s : SS.Idx → EReal) (b : SB.Idx → EReal) :
    SX.Idx → EReal :=
  fun i => (∑ k : Fin 4096, x (ix3 (i 0) (i 1) k) * weight q s (i 2) k) + b (ix1 (i 2))

/-- Row `r` of batch `u` is row `2048 u + r` of the flattened input (and of the flattened output). -/
def flatRow (u : Fin 2) (r : Fin 2048) : Fin 4096 :=
  ⟨2048 * u.val + r.val, by have := u.isLt; have := r.isLt; omega⟩

theorem flatRow_val (u : Fin 2) (r : Fin 2048) : (flatRow u r).val = 2048 * u.val + r.val := rfl

/-- FLATTENING COMMUTES WITH THE LAYER. If `x2` is `x` with its two leading axes merged and `b1` is `b` kept as
    one row, the layer on flattened rows at `(2048 u + r, o)` is the layer at `(u, r, o)`: the same sum, term
    by term. -/
theorem rowsOut_flat (x : SX.Idx → EReal) (x2 : SQ.Idx → EReal) (q : SQ.Idx → BitVec 32) (s : SS.Idx → EReal)
    (b : SB.Idx → EReal) (b1 : SB1.Idx → EReal)
    (hx : ∀ (u : Fin 2) (r : Fin 2048) (k : Fin 4096), x2 (ix2 (flatRow u r) k) = x (ix3 u r k))
    (hb : ∀ o : Fin 4096, b1 (ix2 (0 : Fin 1) o) = b (ix1 o)) (u : Fin 2) (r : Fin 2048) (o : Fin 4096) :
    rowsOut x2 q s b1 (ix2 (flatRow u r) o) = layerOut x q s b (ix3 u r o) := by
  show (∑ k : Fin 4096, x2 (ix2 (flatRow u r) k) * weight q s o k) + b1 (ix2 (0 : Fin 1) o)
    = (∑ k : Fin 4096, x (ix3 u r k) * weight q s o k) + b (ix1 o)
  rw [hb]
  exact congrArg (· + b (ix1 o)) (Finset.sum_congr rfl fun k _ => by rw [hx])

end Cert.QLinear

end
-- ==== Proof.RefSide.lean ====
/-
  The reference program's result, read index by index over the extended reals, is the layer of Spec.lean.

  The reference regroups the integer weights as 4096 × 128 runs of 32, converts them to reals, multiplies
  each run by its scale (the scale is first given a trailing axis of length one and then repeated 32 times
  along it), flattens the product back to 4096 × 4096, contracts the input's last axis with the weights'
  last axis, and adds the bias repeated over the 2 × 2048 rows. Composing the index maps of those layout
  steps: the weight read at `(o, k)` is the integer at `(o, k)` times the scale at `(o, k / 32)`, and entry
  `(u, r, o)` of the result is `(∑ k, x[u, r, k] · w[o, k]) + b[o]`.
-/
import proofs.«104027_j86148454023437_1_alg».proof.Proof.Gen.ReferenceIdeal.Run
import proofs.«104027_j86148454023437_1_alg».proof.Proof.Gen.ReferenceIdeal.Read
import proofs.«104027_j86148454023437_1_alg».proof.Proof.Spec

noncomputable section

open Idealize.ShloMosaic Idealize.ShloMosaic.ValueIdx

namespace Cert.ReferenceIdeal.RefSide

open Cert.ReferenceIdeal Cert.ReferenceIdeal.Read Cert.QLinear

/-- Flattening (o, k / 32, k mod 32) back and regrouping again lands on the integer at `(o, k)`. -/
theorem weight_idx (o k : Fin 4096) : idx_main_v0 (idx_main_v5 (ix2 o k)) = ix2 o k :=
  funext fun a => Fin.ext (by
    have ho := o.isLt
    have hk := k.isLt
    match a with
    | ⟨0, _⟩ =>
      show (((o.val * 4096 + k.val) / 4096 * 128 + (o.val * 4096 + k.val) / 32 % 128) * 32
        + (o.val * 4096 + k.val) % 32) / 4096 = o.val
      omega
    | ⟨1, _⟩ =>
      show (((o.val * 4096 + k.val) / 4096 * 128 + (o.val * 4096 + k.val) / 32 % 128) * 32
        + (o.val * 4096 + k.val) % 32) % 4096 = k.val
      omega)

/-- The scale repeated along a run is read at the run's number, `k / 32`. -/
theorem scale_idx (o k : Fin 4096) : idx_main_v2 (idx_main_v3 (idx_main_v5 (ix2 o k))) = ix2 o (blockOf k) :=
  funext fun a => Fin.ext (by
    have ho := o.isLt
    have hk := k.isLt
    match a with
    | ⟨0, _⟩ => show (o.val * 4096 + k.val) / 4096 = o.val; omega
    | ⟨1, _⟩ => show (o.val * 4096 + k.val) / 32 % 128 = k.val / 32; omega)

/-- The weight the contraction reads at `(o, k)` is the layer's weight. -/
theorem weight_eq (x1 : (⟨S4096x4096, .i32⟩ : BufTy).Contents (Elt Ideal))
    (x2 : (⟨S4096x128, .f32⟩ : BufTy).Contents (Elt Ideal)) (o k : Fin 4096) :
    val_main_v5 (F := Ideal) x1 x2 (ix2 o k) = weight x1 x2 o k := by
  rw [val_main_v5_apply, val_main_v4_apply, val_main_v1_apply, val_main_v0_apply, val_main_v3_apply, val_main_v2_apply,
    weight_idx, scale_idx]
  rfl

/-- The contraction reads the input at `(u, r, k)` … -/
theorem lidx_eq (u : Fin 2) (r : Fin 2048) (o k : Fin 4096) : lidx_main_v6 (ix3 u r o) k = ix3 u r k :=
  funext fun a => Fin.ext (by match a with | ⟨0, _⟩ => rfl | ⟨1, _⟩ => rfl | ⟨2, _⟩ => rfl)

/-- … and the weights at `(o, k)`. -/
theorem ridx_eq (u : Fin 2) (r : Fin 2048) (o k : Fin 4096) : ridx_main_v6 (ix3 u r o) k = ix2 o k :=
  funext fun a => Fin.ext (by match a with | ⟨0, _⟩ => rfl | ⟨1, _⟩ => rfl)

/-- The bias repeated over the rows is read at the output column. -/
theorem bias_idx (u : Fin 2) (r : Fin 2048) (o : Fin 4096) : idx_main_v7 (idx_main_v8 (ix3 u r o)) = ix1 o :=
  funext fun a => Fin.ext (by match a with | ⟨0, _⟩ => rfl)

/-- THE REFERENCE IS THE LAYER. -/
theorem reference_eq (x0 : (⟨S2x2048x4096, .f32⟩ : BufTy).Contents (Elt Ideal))
    (x1 : (⟨S4096x4096, .i32⟩ : BufTy).Contents (Elt Ideal)) (x2 : (⟨S4096x128, .f32⟩ : BufTy).Contents (Elt Ideal))
    (x3 : (⟨S4096, .f32⟩ : BufTy).Contents (Elt Ideal)) :
    val_main_v9 (F := Ideal) x0 x1 x2 x3 = layerOut x0 x1 x2 x3 := by
  funext i
  obtain ⟨u, r, o, rfl⟩ : ∃ (u : Fin 2) (r : Fin 2048) (o : Fin 4096), i = ix3 u r o := ⟨i 0, i 1, i 2, eq_ix3 i⟩
  rw [val_main_v9_apply, val_main_v6_apply, val_main_v8_apply, val_main_v7_apply, bias_idx]
  show (∑ k : Fin 4096, x0 (lidx_main_v6 (ix3 u r o) k) * val_main_v5 (F := Ideal) x1 x2 (ridx_main_v6 (ix3 u r o) k))
      + x3 (ix1 o) = (∑ k : Fin 4096, x0 (ix3 u r k) * weight x1 x2 o k) + x3 (ix1 o)
  refine congrArg (· + x3 (ix1 o)) (Finset.sum_congr rfl fun k _ => ?_)
  rw [lidx_eq, ridx_eq, weight_eq]

end Cert.ReferenceIdeal.RefSide

end
-- ==== Proof.CasePieces.lean ====
/-
  What one run of the kernel body leaves behind, in each of its two control cases, as pure functions of
  what it loaded.

  The body keeps the dequantized 256-row weight tile in a scratch buffer that survives from one grid point
  to the next. At a point whose second grid coordinate is zero (the first of the eight row-blocks of a
  weight tile) it recomputes the tile from the integer block and the scale block and stores it; at every
  other point it stores nothing there. In both cases it then multiplies the 512-row input block by the
  tile now in the scratch buffer, adds the bias row, and stores the 512 × 256 result.

    * first-of-eight case: the scratch buffer ends at the dequantized tile of this point's blocks, and the
      output block is the product of the input block with THAT tile (the body reads back what it has just
      stored), plus the bias;
    * any other case: the scratch buffer is untouched and the output block is the product of the input
      block with whatever tile the scratch buffer held on entry, plus the bias.
-/
import proofs.«104027_j86148454023437_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer load or store, as the constant function. -/
theorem hz : (![0, 0] : Fin 2 → Nat) = fun _ => 0 := funext fun a => by fin_cases a <;> rfl

/-- First-of-eight case, the carried scratch buffer: its one covering store writes the dequantized tile of
    the integer block `x1` and the scale block `x2`. -/
theorem scratch_first (c : Dev nD) (i : grid0.Coords) (a2 : Memref sig .tc .vmem S512x4096 .f32) (h2 : a2.IsWhole)
    (a3 : Memref sig .tc .vmem S256x4096 .i32) (h3 : a3.IsWhole) (a4 : Memref sig .tc .vmem S256x128 .f32) (h4 : a4.IsWhole)
    (a5 : Memref sig .tc .vmem S1x256 .f32) (h5 : a5.IsWhole) (a6 : Memref sig .tc .vmem S512x256 .f32) (h6 : a6.IsWhole)
    (a7 : Memref sig .tc .vmem S256x4096 .bf16) (h7 : a7.IsWhole) (hc : cond0_0 i)
    (x0 : Vec F S512x4096 .f32) (x1 : Vec F S256x4096 .i32) (x2 : Vec F S256x128 .f32) (x3 : Vec F S1x256 .f32) :
    sout0_A_0 c i a2 h2 a3 h3 a4 h4 a5 h5 a6 h6 a7 h7 hc x0 x1 x2 x3 = k0_pay1 x1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h3.read_unread, h4.read_unread, View.ld_unit_zero (S := S256x4096) hz,
    View.ld_unit_zero (S := S256x128) hz]

/-- First-of-eight case, the output block: the input block `x0` against the tile just stored (read back
    from the scratch buffer), plus the bias row `x3`. -/
theorem out_first (c : Dev nD) (i : grid0.Coords) (a2 : Memref sig .tc .vmem S512x4096 .f32) (h2 : a2.IsWhole)
    (a3 : Memref sig .tc .vmem S256x4096 .i32) (h3 : a3.IsWhole) (a4 : Memref sig .tc .vmem S256x128 .f32) (h4 : a4.IsWhole)
    (a5 : Memref sig .tc .vmem S1x256 .f32) (h5 : a5.IsWhole) (a6 : Memref sig .tc .vmem S512x256 .f32) (h6 : a6.IsWhole)
    (a7 : Memref sig .tc .vmem S256x4096 .bf16) (h7 : a7.IsWhole) (hc : cond0_0 i)
    (x0 : Vec F S512x4096 .f32) (x1 : Vec F S256x4096 .i32) (x2 : Vec F S256x128 .f32) (x3 : Vec F S1x256 .f32) :
    out0_A_4 c i a2 h2 a3 h3 a4 h4 a5 h5 a6 h6 a7 h7 hc x0 x1 x2 x3 = k0_pay2 x0 (k0_pay1 x1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz, View.readCov_unit_zero (S := S256x4096) _ hz]
  simp only [View.readAt_eq_ld, h2.read_unread, h3.read_unread, h4.read_unread, h5.read_unread,
    View.ld_unit_zero (S := S512x4096) hz, View.ld_unit_zero (S := S256x4096) hz,
    View.ld_unit_zero (S := S256x128) hz, View.ld_unit_zero (S := S1x256) hz]

/-- Any other case, the output block: the input block `x0` against the tile `xs` the scratch buffer held on
    entry, plus the bias row `x3`. -/
theorem out_later (c : Dev nD) (i : grid0.Coords) (a2 : Memref sig .tc .vmem S512x4096 .f32) (h2 : a2.IsWhole)
    (a3 : Memref sig .tc .vmem S256x4096 .i32) (h3 : a3.IsWhole) (a4 : Memref sig .tc .vmem S256x128 .f32) (h4 : a4.IsWhole)
    (a5 : Memref sig .tc .vmem S1x256 .f32) (h5 : a5.IsWhole) (a6 : Memref sig .tc .vmem S512x256 .f32) (h6 : a6.IsWhole)
    (a7 : Memref sig .tc .vmem S256x4096 .bf16) (h7 : a7.IsWhole) (hc : ¬cond0_0 i)
    (x0 : Vec F S512x4096 .f32) (x1 : Vec F S256x4096 .i32) (x2 : Vec F S256x128 .f32) (x3 : Vec F S1x256 .f32)
    (xs : Vec F S256x4096 .bf16) :
    out0_B_4 c i a2 h2 a3 h3 a4 h4 a5 h5 a6 h6 a7 h7 hc x0 x1 x2 x3 xs = k0_pay2 x0 xs x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  rw [View.canon_unit_zero hz]
  simp only [View.readAt_eq_ld, h2.read_unread, h5.read_unread, h7.read_unread,
    View.ld_unit_zero (S := S512x4096) hz, View.ld_unit_zero (S := S256x4096) hz,
    View.ld_unit_zero (S := S1x256) hz]

end Cert.KernelIdeal.Pieces

end
-- ==== Proof.Payloads.lean ====
/-
  The two pure values the kernel body stores, read one entry at a time over the extended reals.

  The first is the dequantized weight tile: the 256 × 4096 integer block, regrouped as 256 × 128 runs of 32
  columns, each run multiplied by its own scale, regrouped back. Entry `(p, k)` is therefore the integer at
  `(p, k)` times the scale at `(p, k / 32)`. The second is the output block: the 512 × 4096 input block times
  the transpose of the tile, plus the bias row repeated down the rows, so entry `(r, o)` is
  `(∑ k, x[r, k] · w[o, k]) + bias[o]`. Changing the float format (the body rounds both matmul operands
  to a 16-bit format) does nothing to an extended real, and a matmul into a zero accumulator is the plain
  sum of products.
-/
import proofs.«104027_j86148454023437_1_alg».proof.Proof.Gen.KernelIdeal.Skeleton
import proofs.«104027_j86148454023437_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payloads

open Cert.KernelIdeal Cert.KernelIdeal.Gen Cert.QLinear

/-- The position of column `k` inside its block of 32. -/
def inBlock (k : Fin 4096) : Fin 32 := ⟨k.val % 32, Nat.mod_lt _ (by decide)⟩

/-- THE DEQUANTIZED TILE AT AN ENTRY. The body views the 256 × 4096 integer block as 256 × 128 blocks of 32,
    multiplies block `(p, k / 32)` by the scale at `(p, k / 32)` (the scale column is repeated along the 32
    positions of a block), and flattens back: entry `(p, k)` is the integer at `(p, k)`, as a real, times
    the scale of column `k`'s block. Rounding to the narrower float format is the identity here. -/
theorem dequant_apply (x1 : Vec Ideal S256x4096 .i32) (x2 : Vec Ideal S256x128 .f32) (p : Fin 256) (k : Fin 4096) :
    k0_pay1 (F := Ideal) x1 x2 (ix2 p k)
      = FloatOps.sitofp (F := Ideal) .f32 (x1 (ix2 p k)) * x2 (ix2 p (blockOf k)) := by
  unfold k0_pay1
  rw [shapeCast_self, truncf_apply]
  refine (shapeCast_apply _ shapeCasts_S256x128x32_S256x4096 (ix2 p k) (ix3 p (blockOf k) (inBlock k)) ?_).trans ?_
  · rewrite [Shape.rowMajor_val_three, Shape.rowMajor_val_two]
    show (p.val * 128 + k.val / 32) * 32 + k.val % 32 = p.val * 4096 + k.val
    omega
  rw [mulf_apply]
  refine congrArg₂ (· * ·) ?_ ?_
  · refine (shapeCast_apply _ shapeCasts_S256x4096_S256x128x32 (ix3 p (blockOf k) (inBlock k)) (ix2 p k) ?_).trans ?_
    · rewrite [Shape.rowMajor_val_three, Shape.rowMajor_val_two]
      show p.val * 4096 + k.val = (p.val * 128 + k.val / 32) * 32 + k.val % 32
      omega
    · rfl
  · refine (broadcastTo_apply _ broadcasts_S256x128x1_S256x128x32 (ix3 p (blockOf k) (inBlock k))
      (ix3 p (blockOf k) (0 : Fin 1)) (fun a => ?_)).trans ?_
    · match a with
      | ⟨0, _⟩ => show p.val = if (256 : Nat) = 1 then 0 else p.val; rw [if_neg (by decide)]
      | ⟨1, _⟩ => show (blockOf k).val = if (128 : Nat) = 1 then 0 else (blockOf k).val; rw [if_neg (by decide)]
      | ⟨2, _⟩ => show 0 = if (1 : Nat) = 1 then 0 else (inBlock k).val; rw [if_pos rfl]
    · refine shapeCast_apply x2 shapeCasts_S256x128_S256x128x1 (ix3 p (blockOf k) (0 : Fin 1)) (ix2 p (blockOf k)) ?_
      rewrite [Shape.rowMajor_val_three, Shape.rowMajor_val_two]
      show p.val * 128 + (blockOf k).val = (p.val * 128 + (blockOf k).val) * 1 + 0
      omega

/-- The matrix product's left operand is read at the output's row … -/
theorem lhs_row (j : S512x256.Idx) (q : dot_S512x4096_S256x4096_S512x256_1_1_0_0_n_n.contr.Idx) :
    (dot_S512x4096_S256x4096_S512x256_1_1_0_0_n_n.lhsIdx j q 0).val = (j 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- … and at the contraction position; -/
theorem lhs_col (j : S512x256.Idx) (q : dot_S512x4096_S256x4096_S512x256_1_1_0_0_n_n.contr.Idx) :
    (dot_S512x4096_S256x4096_S512x256_1_1_0_0_n_n.lhsIdx j q 1).val = (q ⟨0, by decide⟩).val :=
  dot_S512x4096_S256x4096_S512x256_1_1_0_0_n_n.lhsIdx_val_of_single rfl j q
/-- the right operand at the row named by the output's COLUMN (the tile is used transposed) … -/
theorem rhs_row (j : S512x256.Idx) (q : dot_S512x4096_S256x4096_S512x256_1_1_0_0_n_n.contr.Idx) :
    (dot_S512x4096_S256x4096_S512x256_1_1_0_0_n_n.rhsIdx j q 0).val = (j 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- … and at the contraction position. -/
theorem rhs_col (j : S512x256.Idx) (q : dot_S512x4096_S256x4096_S512x256_1_1_0_0_n_n.contr.Idx) :
    (dot_S512x4096_S256x4096_S512x256_1_1_0_0_n_n.rhsIdx j q 1).val = (q ⟨0, by decide⟩).val :=
  dot_S512x4096_S256x4096_S512x256_1_1_0_0_n_n.rhsIdx_val_of_single rfl j q

/-- THE OUTPUT BLOCK AT AN ENTRY. The matrix product of the 512 × 4096 input block with the 256 × 4096 tile
    contracts the second axis of both (the tile is used transposed) into a zero accumulator, so entry
    `(r, o)` is `∑ k, x0[r, k] · w[o, k]`; the bias row is repeated down the 512 rows. -/
theorem product_apply (x0 : Vec Ideal S512x4096 .f32) (w : FVec Ideal S256x4096 .bf16) (x3 : Vec Ideal S1x256 .f32)
    (r : Fin 512) (o : Fin 256) :
    k0_pay2 (F := Ideal) x0 w x3 (ix2 r o)
      = (∑ k : Fin 4096, x0 (ix2 r k) * w (ix2 o k)) + x3 (ix2 (0 : Fin 1) o) := by
  unfold k0_pay2
  rw [addf_apply]
  refine congrArg₂ (· + ·) ?_ ?_
  · simp only [matmul]
    rw [Ideal.matmul_constant_zero_apply,
      ← Equiv.sum_comp (contrEquiv1 dot_S512x4096_S256x4096_S512x256_1_1_0_0_n_n 4096 rfl rfl).symm]
    refine Finset.sum_congr rfl fun k _ => ?_
    have hk := contrEquiv1_symm_val dot_S512x4096_S256x4096_S512x256_1_1_0_0_n_n 4096 rfl rfl k
    have el : dot_S512x4096_S256x4096_S512x256_1_1_0_0_n_n.lhsIdx (ix2 r o)
        ((contrEquiv1 dot_S512x4096_S256x4096_S512x256_1_1_0_0_n_n 4096 rfl rfl).symm k) = ix2 r k :=
      funext fun a => Fin.ext (by
        match a with
        | ⟨0, _⟩ => exact lhs_row _ _
        | ⟨1, _⟩ => exact (lhs_col _ _).trans hk)
    have er : dot_S512x4096_S256x4096_S512x256_1_1_0_0_n_n.rhsIdx (ix2 r o)
        ((contrEquiv1 dot_S512x4096_S256x4096_S512x256_1_1_0_0_n_n 4096 rfl rfl).symm k) = ix2 o k :=
      funext fun a => Fin.ext (by
        match a with
        | ⟨0, _⟩ => exact rhs_row _ _
        | ⟨1, _⟩ => exact (rhs_col _ _).trans hk)
    rw [el, er, truncf_apply, shapeCast_self]
  · rw [shapeCast_self]
    exact broadcastTo_1b_ab_apply x3 broadcasts_S1x256_S512x256 r o

end Cert.KernelIdeal.Payloads

end
-- ==== Proof.Blocks.lean ====
/-
  Where each window's block sits in its array at a grid point.

  The grid has 16 × 8 points, numbered with the second coordinate fastest: point `t` works on weight tile
  `t / 8` (256 rows of the weight matrix, hence 256 columns of the output) and on row-block `t mod 8` of the
  flattened input (512 rows). A block's entry sits in its array at (block number × block extent + offset in
  the block) on each axis; the block numbers are read off the printed index maps once, for all 128 points.
-/
import proofs.«104027_j86148454023437_1_alg».proof.Proof.Gen.KernelIdeal.Frame
import proofs.«104027_j86148454023437_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.QLinear

variable {F : FTy → Type} [FloatOps F]
variable (m : (ℓ : Loc nD τ sig) → Buf (Elt F) ℓ)

/-- The weight tile grid point `t` works on: the grid runs over 16 tiles, 8 row-blocks of the input each,
    the row-block changing fastest. -/
def tileOf (t : Fin cfg0.N) : Fin 16 :=
  ⟨t.val / 8, by have h := t.isLt; have hN : cfg0.N = 128 := N_0; omega⟩

theorem tileOf_val (t : Fin cfg0.N) : (tileOf t).val = t.val / 8 := rfl

/-- Row `r` of the input block at point `t` is row `512 (t mod 8) + r` of the flattened input. -/
def inRow (t : Fin cfg0.N) (r : Fin 512) : Fin 4096 :=
  ⟨512 * (t.val % 8) + r.val, by have := r.isLt; have := Nat.mod_lt t.val (show 0 < 8 by decide); omega⟩

theorem inRow_val (t : Fin cfg0.N) (r : Fin 512) : (inRow t r).val = 512 * (t.val % 8) + r.val := rfl

/-- Column `o` of the output block at point `t` is column `256 (t / 8) + o` of the flattened output: the row
    of the weight matrix with that number. -/
def outCol (t : Fin cfg0.N) (o : Fin 256) : Fin 4096 := tileRow (tileOf t) o

theorem outCol_val (t : Fin cfg0.N) (o : Fin 256) : (outCol t o).val = 256 * (t.val / 8) + o.val := rfl

/-- The block each window is on at point `t`, decided once over the 128 points: the input follows the
    row-block `t mod 8`; the integer weights, the scales and the bias follow the tile `t / 8`; the output block
    is at (row-block, tile). -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val / 8
    ∧ win0_4.index t (0 : Fin 2) = t.val % 8 ∧ win0_4.index t (1 : Fin 2) = t.val / 8 :=
  (by decide +kernel : ∀ t : Fin grid0.N, _)

/-- The input block at point `t`, entry `(r, k)`: the flattened input at row `512 (t mod 8) + r`. -/
theorem input_block (c : Dev nD) (t : Fin cfg0.N) (r : Fin 512) (k : Fin 4096) :
    (iblk m c 0 t : Vec F S512x4096 .f32) (ix2 r k) = V m c main_v0 (ix2 (inRow t r) k) := by
  obtain ⟨e0, e1, -⟩ := idx_facts t
  show V m c main_v0 (((cfg0.win 0).blk t).view.emb (ix2 r k)) = V m c main_v0 (ix2 (inRow t r) k)
  refine congrArg (V m c main_v0) (funext fun a => Fin.ext ?_)
  match a with
  | ⟨0, _⟩ => show win0_0.index t (0 : Fin 2) * 512 + 1 * r.val = 512 * (t.val % 8) + r.val; rw [e0]; omega
  | ⟨1, _⟩ => show win0_0.index t (1 : Fin 2) * 4096 + 1 * k.val = k.val; rw [e1]; omega

/-- The integer block at point `t`, entry `(p, k)`: the integer weights at row `256 (t / 8) + p`. -/
theorem quant_block (c : Dev nD) (t : Fin cfg0.N) (p : Fin 256) (k : Fin 4096) :
    (iblk m c 1 t : Vec F S256x4096 .i32) (ix2 p k) = V m c main_arg1 (ix2 (outCol t p) k) := by
  obtain ⟨-, -, e0, e1, -⟩ := idx_facts t
  show V m c main_arg1 (((cfg0.win 1).blk t).view.emb (ix2 p k)) = V m c main_arg1 (ix2 (outCol t p) k)
  refine congrArg (V m c main_arg1) (funext fun a => Fin.ext ?_)
  match a with
  | ⟨0, _⟩ => show win0_1.index t (0 : Fin 2) * 256 + 1 * p.val = 256 * (t.val / 8) + p.val; rw [e0]; omega
  | ⟨1, _⟩ => show win0_1.index t (1 : Fin 2) * 4096 + 1 * k.val = k.val; rw [e1]; omega

/-- The scale block at point `t`, entry `(p, b)`: the scales at row `256 (t / 8) + p`. -/
theorem scale_block (c : Dev nD) (t : Fin cfg0.N) (p : Fin 256) (b : Fin 128) :
    (iblk m c 2 t : Vec F S256x128 .f32) (ix2 p b) = V m c main_arg2 (ix2 (outCol t p) b) := by
  obtain ⟨-, -, -, -, e0, e1, -⟩ := idx_facts t
  show V m c main_arg2 (((cfg0.win 2).blk t).view.emb (ix2 p b)) = V m c main_arg2 (ix2 (outCol t p) b)
  refine congrArg (V m c main_arg2) (funext fun a => Fin.ext ?_)
  match a with
  | ⟨0, _⟩ => show win0_2.index t (0 : Fin 2) * 256 + 1 * p.val = 256 * (t.val / 8) + p.val; rw [e0]; omega
  | ⟨1, _⟩ => show win0_2.index t (1 : Fin 2) * 128 + 1 * b.val = b.val; rw [e1]; omega

/-- The bias block at point `t`, entry `(0, o)`: the bias row at column `256 (t / 8) + o`. -/
theorem bias_block (c : Dev nD) (t : Fin cfg0.N) (o : Fin 256) :
    (iblk m c 3 t : Vec F S1x256 .f32) (ix2 (0 : Fin 1) o) = V m c main_v1 (ix2 (0 : Fin 1) (outCol t o)) := by
  obtain ⟨-, -, -, -, -, -, e0, e1, -⟩ := idx_facts t
  show V m c main_v1 (((cfg0.win 3).blk t).view.emb (ix2 (0 : Fin 1) o)) = V m c main_v1 (ix2 (0 : Fin 1) (outCol t o))
  refine congrArg (V m c main_v1) (funext fun a => Fin.ext ?_)
  match a with
  | ⟨0, _⟩ => show win0_3.index t (0 : Fin 2) * 1 + 1 * 0 = 0; rw [e0]
  | ⟨1, _⟩ => show win0_3.index t (1 : Fin 2) * 256 + 1 * o.val = 256 * (t.val / 8) + o.val; rw [e1]; omega

end Cert.KernelIdeal.Blocks

end
-- ==== Proof.Carried.lean ====
/-
  The weight tile carried from grid point to grid point, and the output block at every point.

  The 128 grid points run over 16 weight tiles with 8 input row-blocks each, the row-block changing
  fastest. The body dequantizes a tile only at the first of its eight points and leaves it in a scratch
  buffer for the other seven. By induction along the points, after point `n` the scratch buffer holds tile
  `n / 8`; hence at EVERY point the output block is the input block times tile `n / 8` plus the bias block,
  as if the tile had been dequantized afresh each time.
-/
import proofs.«104027_j86148454023437_1_alg».proof.Proof.CasePieces
import proofs.«104027_j86148454023437_1_alg».proof.Proof.Payloads
import proofs.«104027_j86148454023437_1_alg».proof.Proof.Blocks

noncomputable section

open Idealize.ShloMosaic Idealize.ShloMosaic.TcCoe Idealize.SL.Sem Idealize.ShloMosaic.ValueIdx

namespace Cert.KernelIdeal.Carried

open Cert.KernelIdeal Cert.KernelIdeal.Gen Cert.QLinear Cert.KernelIdeal.Blocks

variable (m : (ℓ : Loc nD τ sig) → Buf (Elt Ideal) ℓ)

/-- Weight tile `n` of the arrays as the region finds them. -/
abbrev tile (c : Dev nD) (n : Fin 16) : FVec Ideal S256x4096 .bf16 :=
  tileWeight (V m c main_arg1) (V m c main_arg2) n

/-- Dequantizing the integer block and the scale block of point `t` gives weight tile `t / 8`: entry by
    entry, the integer and its block's scale are read at row `256 (t / 8) + p` of their arrays. -/
theorem dequant_blocks (c : Dev nD) (t : Fin cfg0.N) :
    k0_pay1 (F := Ideal) (iblk m c 1 t) (iblk m c 2 t) = tile m c (tileOf t) := by
  funext y
  obtain ⟨p, k, rfl⟩ : ∃ (p : Fin 256) (k : Fin 4096), y = ix2 p k := ⟨y 0, y 1, eq_ix2 y⟩
  refine (Payloads.dequant_apply (iblk m c 1 t) (iblk m c 2 t) p k).trans ?_
  refine congrArg₂ (fun (a : BitVec 32) (b : EReal) => FloatOps.sitofp (F := Ideal) .f32 a * b) ?_ ?_
  · exact quant_block m c t p k
  · exact scale_block m c t p (blockOf k)

/-- THE CARRIED TILE. After the body at point `n` the scratch buffer holds weight tile `n / 8`: a point that
    starts a tile (`n` a multiple of 8) has just stored it; any other point stored nothing there, so the buffer
    still holds what the point before left, and `(n - 1) / 8 = n / 8` because `n` is not a multiple of 8. -/
theorem carried (c : Dev nD) : ∀ (n : ℕ) (h : n < cfg0.N), (outsAt0 m c n h).2 = tile m c (tileOf ⟨n, h⟩)
  | 0, h => by
    rw [outsAt0_A m c ⟨0, h⟩ rfl]
    dsimp only
    exact (Pieces.scratch_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) scM0_0
      (Memref.isWhole_whole _) ((hcond0_0 ⟨0, h⟩).mpr rfl) (iblk m c 0 ⟨0, h⟩) (iblk m c 1 ⟨0, h⟩) (iblk m c 2 ⟨0, h⟩)
      (iblk m c 3 ⟨0, h⟩)).trans (dequant_blocks m c ⟨0, h⟩)
  | n + 1, h => by
    by_cases h0 : (n + 1) % 8 = 0
    · rw [outsAt0_A m c ⟨n + 1, h⟩ h0]
      dsimp only
      exact (Pieces.scratch_first (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) scM0_0 (Memref.isWhole_whole _) ((hcond0_0 ⟨n + 1, h⟩).mpr h0) (iblk m c 0 ⟨n + 1, h⟩)
        (iblk m c 1 ⟨n + 1, h⟩) (iblk m c 2 ⟨n + 1, h⟩) (iblk m c 3 ⟨n + 1, h⟩)).trans (dequant_blocks m c ⟨n + 1, h⟩)
    · rw [outsAt0_B m c ⟨n + 1, h⟩ h0]
      dsimp only
      unfold sout0_B_0
      show (outsAt0 m c n _).2 = _
      rw [carried c n]
      refine congrArg (tile m c) (Fin.ext ?_)
      show n / 8 = (n + 1) / 8
      omega

/-- THE OUTPUT BLOCK AT EVERY POINT is the product of the point's input block with weight tile `t / 8`, plus
    the point's bias block — whether the tile was stored at this very point or eight or fewer points ago. -/
theorem out_block (c : Dev nD) (t : Fin cfg0.N) :
    (outsAt0 m c t.val t.isLt).1 = k0_pay2 (F := Ideal) (iblk m c 0 t) (tile m c (tileOf t)) (iblk m c 3 t) := by
  by_cases h0 : t.val % 8 = 0
  · rw [outsAt0_A m c t h0]
    dsimp only
    refine (Pieces.out_first (F := Ideal) c (grid0.coords t) (ms0_0 t) (hs0_0 t) (ms0_1 t) (hs0_1 t) (ms0_2 t) (hs0_2 t) (ms0_3 t)
      (hs0_3 t) (ms0_4 t) (hs0_4 t) scM0_0 (Memref.isWhole_whole _) ((hcond0_0 t).mpr h0) (iblk m c 0 t) (iblk m c 1 t)
      (iblk m c 2 t) (iblk m c 3 t)).trans ?_
    exact congrArg (fun w => k0_pay2 (F := Ideal) (iblk m c 0 t) w (iblk m c 3 t)) (dequant_blocks m c t)
  · rw [outsAt0_B m c t h0]
    dsimp only
    refine (Pieces.out_later (F := Ideal) c (grid0.coords t) (ms0_0 t) (hs0_0 t) (ms0_1 t) (hs0_1 t) (ms0_2 t) (hs0_2 t) (ms0_3 t)
      (hs0_3 t) (ms0_4 t) (hs0_4 t) scM0_0 (Memref.isWhole_whole _) (fun h => h0 ((hcond0_0 t).mp h)) (iblk m c 0 t)
      (iblk m c 1 t) (iblk m c 2 t) (iblk m c 3 t)
      (outsAt0 m c (t.val - 1) (Nat.lt_of_le_of_lt (Nat.sub_le _ _) t.isLt)).2).trans ?_
    have hprev : (outsAt0 m c (t.val - 1) (Nat.lt_of_le_of_lt (Nat.sub_le _ _) t.isLt)).2 = tile m c (tileOf t) :=
      (carried m c (t.val - 1) _).trans (congrArg (tile m c) (Fin.ext (by
        show (t.val - 1) / 8 = t.val / 8
        omega)))
    exact congrArg (fun w => k0_pay2 (F := Ideal) (iblk m c 0 t) w (iblk m c 3 t)) hprev

end Cert.KernelIdeal.Carried

end
-- ==== Proof.Flush.lean ====
/-
  From the blocks to the array: what the 4096 × 4096 result array holds when the region ends.

  Every grid point writes its 512 × 256 output block back, and that block is the point's rectangle of ONE
  function of the arrays as the region finds them — the layer on 4096 flattened rows. The 16 × 8 rectangles
  tile the array, so the array ends holding that function.
-/
import proofs.«104027_j86148454023437_1_alg».proof.Proof.Carried

noncomputable section

open Idealize.ShloMosaic Idealize.ShloMosaic.TcCoe Idealize.SL.Sem Idealize.ShloMosaic.ValueIdx
open Idealize.ShloMosaic.Pipeline (Dat)

namespace Cert.KernelIdeal.Flush

open Cert.KernelIdeal Cert.KernelIdeal.Gen Cert.QLinear Cert.KernelIdeal.Blocks

variable (m : (ℓ : Loc nD τ sig) → Buf (Elt Ideal) ℓ)

/-- The layer on 4096 flattened rows, of the arrays as the region finds them: the flattened input, the
    integer weights, the scales, and the bias kept as one row. -/
abbrev rows (c : Dev nD) : SQ.Idx → EReal :=
  rowsOut (V m c main_v0) (V m c main_arg1) (V m c main_arg2) (V m c main_v1)

/-- WHAT POINT `t` WRITES BACK is its 512 × 256 block of `rows`: entry `(r, o)` of the output block sits at
    row `512 (t mod 8) + r`, column `256 (t / 8) + o` of the array; there the layer sums the flattened input's row
    against weight row `256 (t / 8) + o`, which is row `o` of tile `t / 8`, and adds the bias at that column. -/
theorem flushed_eq (c : Dev nD) (t : Fin cfg0.N) :
    (dats m 0 c).flushed 4 t = ((cfg0.win 4).blk t).view.read (Elt Ideal) (rows m c) := by
  show (cfg0.win 4).cut (grid0.coords t) ((dats m 0 c).after 4 t) = _
  rw [after0_4, Carried.out_block]
  obtain ⟨-, -, -, -, -, -, -, -, e0, e1⟩ := idx_facts t
  funext y
  obtain ⟨r, o, rfl⟩ : ∃ (r : Fin 512) (o : Fin 256), y = ix2 r o := ⟨y 0, y 1, eq_ix2 y⟩
  show k0_pay2 (F := Ideal) (iblk m c 0 t) (Carried.tile m c (tileOf t)) (iblk m c 3 t) (ix2 r o)
    = rows m c (((cfg0.win 4).blk t).view.emb (ix2 r o))
  have hemb : ((cfg0.win 4).blk t).view.emb (ix2 r o) = ix2 (inRow t r) (outCol t o) := by
    funext a; apply Fin.ext
    match a with
    | ⟨0, _⟩ => show win0_4.index t (0 : Fin 2) * 512 + 1 * r.val = 512 * (t.val % 8) + r.val; rw [e0]; omega
    | ⟨1, _⟩ => show win0_4.index t (1 : Fin 2) * 256 + 1 * o.val = 256 * (t.val / 8) + o.val; rw [e1]; omega
  rw [hemb]
  refine (Payloads.product_apply (iblk m c 0 t) (Carried.tile m c (tileOf t)) (iblk m c 3 t) r o).trans ?_
  refine congrArg₂ (· + ·) (Finset.sum_congr rfl fun k _ => ?_) (bias_block m c t o)
  exact congrArg (· * weight (V m c main_arg1) (V m c main_arg2) (outCol t o) k) (input_block m c t r k)

/-- An index of the array is in point `t`'s block iff each coordinate is in the block's range on its axis. -/
theorem mem_blk (t : Fin cfg0.N) (i : S4096x4096.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v2).slice (win0_4.rect t)).set ↔ _
  rw [View.set_slice_whole, Rect.mem_set_unit]
  exact Iff.rfl

/-- EVERY ENTRY IS WRITTEN BACK BY SOME POINT: entry `(a, b)` by the point of tile `b / 256` and row-block
    `a / 512`, number `8 (b / 256) + a / 512`. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 128 := N_0
  have hlt : (i 1).val / 256 * 8 + (i 0).val / 512 < cfg0.N := by rw [hN]; omega
  refine ⟨⟨(i 1).val / 256 * 8 + (i 0).val / 512, hlt⟩, flush0_4 _, ?_⟩
  rw [mem_blk]
  obtain ⟨-, -, -, -, -, -, -, -, e0, e1⟩ := idx_facts ⟨(i 1).val / 256 * 8 + (i 0).val / 512, hlt⟩
  intro a
  match a with
  | ⟨0, _⟩ =>
    show win0_4.index ⟨(i 1).val / 256 * 8 + (i 0).val / 512, hlt⟩ (0 : Fin 2) * 512 ≤ (i 0).val
      ∧ (i 0).val < win0_4.index ⟨(i 1).val / 256 * 8 + (i 0).val / 512, hlt⟩ (0 : Fin 2) * 512 + 512
    rw [e0]
    show ((i 1).val / 256 * 8 + (i 0).val / 512) % 8 * 512 ≤ (i 0).val
      ∧ (i 0).val < ((i 1).val / 256 * 8 + (i 0).val / 512) % 8 * 512 + 512
    omega
  | ⟨1, _⟩ =>
    show win0_4.index ⟨(i 1).val / 256 * 8 + (i 0).val / 512, hlt⟩ (1 : Fin 2) * 256 ≤ (i 1).val
      ∧ (i 1).val < win0_4.index ⟨(i 1).val / 256 * 8 + (i 0).val / 512, hlt⟩ (1 : Fin 2) * 256 + 256
    rw [e1]
    show ((i 1).val / 256 * 8 + (i 0).val / 512) / 8 * 256 ≤ (i 1).val
      ∧ (i 1).val < ((i 1).val / 256 * 8 + (i 0).val / 512) / 8 * 256 + 256
    omega

/-- THE ARRAY AFTER THE REGION: the 4096 × 4096 result array holds `rows`. -/
theorem final (c : Dev nD) : (dats m 0 c).arrAt 4 cfg0.N = rows m c :=
  (dats m 0 c).arrAt_eq_of_cover 4 (rows m c) (fun t _ => flushed_eq m c t) cover

end Cert.KernelIdeal.Flush

end
-- ==== Proof.Whole.lean ====
/-
  The whole idealized kernel program, read: its result array ends at the layer of its arguments.

  Around the tiled region the program only re-lays arrays out: before it, the input's two leading axes are
  merged (2 × 2048 rows become 4096) and the bias becomes a single row; after it, the 4096 result rows are
  split back into 2 × 2048. A re-layout keeps every entry at the same row-major position, so entry
  `(u, r, o)` of the result is entry `(2048 u + r, o)` of what the region produced, which is the layer on
  flattened rows (Proof/Flush.lean) — and that is the layer at `(u, r, o)`.
-/
import proofs.«104027_j86148454023437_1_alg».proof.Proof.Flush
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.QLinear

variable (m : (ℓ : Loc nD τ sig) → Buf (Elt Ideal) ℓ) (ρ : Dev nD → PrngReg)

/-- The region finds the input flattened to 4096 rows. -/
theorem flat_input (c : Dev nD) :
    V m c main_v0 = shapeCast S4096x4096 (m ((c : Thread nD τ).loc main_arg0)) shapeCasts_S2x2048x4096_S4096x4096 := by
  show StableHlo.after hostOps0 (fun b => m (c, b)) (Proc.devRef .tc main_v0) = _
  after_results
  rfl

/-- The region finds the bias as one row. -/
theorem bias_row (c : Dev nD) :
    V m c main_v1 = shapeCast S1x4096 (m ((c : Thread nD τ).loc main_arg3)) shapeCasts_S4096_S1x4096 := by
  show StableHlo.after hostOps0 (fun b => m (c, b)) (Proc.devRef .tc main_v1) = _
  after_results
  rfl

/-- The flattened input at row `2048 u + r` is the input at `(u, r)`: the same row-major position. -/
theorem flat_input_apply (c : Dev nD) (u : Fin 2) (r : Fin 2048) (k : Fin 4096) :
    V m c main_v0 (ix2 (flatRow u r) k) = m ((c : Thread nD τ).loc main_arg0) (ix3 u r k) := by
  rw [flat_input]
  refine shapeCast_apply _ shapeCasts_S2x2048x4096_S4096x4096 (ix2 (flatRow u r) k) (ix3 u r k) ?_
  rewrite [Shape.rowMajor_val_three, Shape.rowMajor_val_two]
  show (u.val * 2048 + r.val) * 4096 + k.val = (2048 * u.val + r.val) * 4096 + k.val
  omega

/-- The bias row at column `o` is the bias at `o`. -/
theorem bias_row_apply (c : Dev nD) (o : Fin 4096) :
    V m c main_v1 (ix2 (0 : Fin 1) o) = m ((c : Thread nD τ).loc main_arg3) (ix1 o) := by
  rw [bias_row]
  refine shapeCast_apply _ shapeCasts_S4096_S1x4096 (ix2 (0 : Fin 1) o) (ix1 o) ?_
  rewrite [Shape.rowMajor_val_one, Shape.rowMajor_val_two]
  show o.val = 0 * 4096 + o.val
  omega

/-- After the region the program folds the 4096 rows back to 2 × 2048. -/
theorem tail_eq (c : Dev nD) :
    Pipeline.afterTail₀ cfgs (dats m) 0 (V0 m) [hostOps1] c main_v3
      = shapeCast S2x2048x4096 ((dats m 0 c).arrAt 4 cfg0.N) shapeCasts_S4096x4096_S2x2048x4096 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 4
  exact congrArg (fun X => shapeCast S2x2048x4096 X shapeCasts_S4096x4096_S2x2048x4096) e

/-- THE FOLDED RESULT IS THE LAYER. Entry `(u, r, o)` of the folded array is entry `(2048 u + r, o)` of the
    4096-row array; there the flattened input's row is the input's row `(u, r)`, the weights and scales are the
    arguments themselves, and the bias row is the bias. -/
theorem folded_eq (c : Dev nD) :
    shapeCast S2x2048x4096 (Flush.rows m c) shapeCasts_S4096x4096_S2x2048x4096
      = layerOut (m ((c : Thread nD τ).loc main_arg0)) (m ((c : Thread nD τ).loc main_arg1))
          (m ((c : Thread nD τ).loc main_arg2)) (m ((c : Thread nD τ).loc main_arg3)) := by
  funext i
  obtain ⟨u, r, o, rfl⟩ : ∃ (u : Fin 2) (r : Fin 2048) (o : Fin 4096), i = ix3 u r o := ⟨i 0, i 1, i 2, eq_ix3 i⟩
  refine (shapeCast_apply _ shapeCasts_S4096x4096_S2x2048x4096 (ix3 u r o) (ix2 (flatRow u r) o) ?_).trans ?_
  · rewrite [Shape.rowMajor_val_two, Shape.rowMajor_val_three]
    show (2048 * u.val + r.val) * 4096 + o.val = (u.val * 2048 + r.val) * 4096 + o.val
    omega
  refine (rowsOut_flat (m ((c : Thread nD τ).loc main_arg0)) (V m c main_v0) (V m c main_arg1) (V m c main_arg2)
    (m ((c : Thread nD τ).loc main_arg3)) (V m c main_v1) (flat_input_apply m c) (bias_row_apply m c) u r o).trans ?_
  rw [V_main_arg1, V_main_arg2]

/-- THE RUN, READ: every weakly fair execution of the program terminates with its result array at the layer
    of the argument arrays and the arguments unchanged. -/
theorem run : θ_run defs (onTc (τ := τ) (main (F := Ideal))) ⟨m, fun _ => 0, ρ⟩ fun r => ∀ c : Dev nD,
      r.2.mem ((c.tc : Thread nD τ).loc main_v3)
        = layerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v3 (Pipeline.mem_restRefs_of main_v3 (by decide) (by decide))).trans (tail_eq m c)).trans
        ((congrArg (fun X => shapeCast S2x2048x4096 X shapeCasts_S4096x4096_S2x2048x4096) (Flush.final m c)).trans
          (folded_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.lean ====
/-
  A block-quantized linear layer, tiled and with its dequantized weights cached, equals the plain layer.

  The layer: weights are stored as integers `q[o, k]` with one scale per 32 consecutive columns, so
  `w[o, k] = q[o, k] · s[o, k / 32]`, and `y[u, r, o] = (∑ k, x[u, r, k] · w[o, k]) + b[o]`.

  The reference computes exactly that: it dequantizes the whole 4096 × 4096 matrix, contracts the input
  with it, and adds the bias (Proof/RefSide.lean reads it index by index).

  The kernel flattens the input to 4096 rows and walks a 16 × 8 grid: for each tile of 256 weight rows it
  dequantizes the tile ONCE, at the first of that tile's eight grid points, into a buffer that survives from
  point to point, and at each of the eight points multiplies a 512-row block of the input by the cached tile
  and adds the bias. That the cache is right at every point is an induction along the points
  (Proof/Carried.lean); each point then writes its 512 × 256 rectangle of one and the same function of the
  arguments, the 128 rectangles tile the result, and folding the 4096 rows back to 2 × 2048 gives the layer
  (Proof/Flush.lean, Proof/Whole.lean).

  Over the extended reals rounding an operand to a narrower float format is the identity and a matrix
  product is a plain finite sum of products, so both programs denote the same sum entry by entry: no
  rearrangement of the sum and no law that needs finite entries is used, and the precondition is never
  opened. The idealization rewrote no operation, so its faithfulness conjunct is trivial; the two kernel
  programs' frames are the generated ones, the reference's frame is its run with the result forgotten.
-/
import proofs.«104027_j86148454023437_1_alg».proof.Defs
import proofs.«104027_j86148454023437_1_alg».proof.Proof.Gen.Kernel
import proofs.«104027_j86148454023437_1_alg».proof.Proof.Gen.Kernel.Frame
import proofs.«104027_j86148454023437_1_alg».proof.Proof.Gen.KernelIdeal
import proofs.«104027_j86148454023437_1_alg».proof.Proof.Gen.KernelIdeal.Frame
import proofs.«104027_j86148454023437_1_alg».proof.Proof.Gen.ReferenceIdeal
import proofs.«104027_j86148454023437_1_alg».proof.Proof.Gen.ReferenceIdeal.Run
import proofs.«104027_j86148454023437_1_alg».proof.Proof.Gen.ReferenceIdeal.Read
import proofs.«104027_j86148454023437_1_alg».proof.Proof.Gen.Pre_finite_inputs
import proofs.«104027_j86148454023437_1_alg».proof.Proof.RefSide
import proofs.«104027_j86148454023437_1_alg».proof.Proof.Whole
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefSide.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
